-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel

variable [Facts]

def fn {F : FTy → Type} [FloatOps F] (main_arg0 : FVec F S8x256x256x64 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  main_v3
-- ==== Kernel.lean ====
abbrev S8x256x256x64 : Shape := ⟨4, ![8, 256, 256, 64]⟩
abbrev S64x64 : Shape := ⟨2, ![64, 64]⟩
abbrev S8x512x512x16 : Shape := ⟨4, ![8, 512, 512, 16]⟩
abbrev S1x8x256x64 : Shape := ⟨4, ![1, 8, 256, 64]⟩
abbrev S1x16x512x16 : Shape := ⟨4, ![1, 16, 512, 16]⟩
abbrev S8x256x64 : Shape := ⟨3, ![8, 256, 64]⟩
abbrev S2048x64 : Shape := ⟨2, ![2048, 64]⟩
abbrev S8x256x16 : Shape := ⟨3, ![8, 256, 16]⟩
abbrev S8x256x1x16 : Shape := ⟨4, ![8, 256, 1, 16]⟩
abbrev S8x256x2x16 : Shape := ⟨4, ![8, 256, 2, 16]⟩
abbrev S8x512x16 : Shape := ⟨3, ![8, 512, 16]⟩
abbrev S8x1x512x16 : Shape := ⟨4, ![8, 1, 512, 16]⟩
abbrev S8x2x512x16 : Shape := ⟨4, ![8, 2, 512, 16]⟩
abbrev S16x512x16 : Shape := ⟨3, ![16, 512, 16]⟩

abbrev nBuf : Space → Nat
  | .hbm => 3
  | .vmem => 5
  | .smem => 0
  | _ => 0

abbrev bufTy : (tb : Table) → Fin (tcTables nBuf tb) → BufTy
  | .hbm, ⟨0, _⟩ => ⟨S8x256x256x64, .f32⟩
  | .hbm, ⟨1, _⟩ => ⟨S64x64, .f32⟩
  | .hbm, ⟨2, _⟩ => ⟨S8x512x512x16, .f32⟩
  | .local _ .vmem, ⟨0, _⟩ => ⟨S1x8x256x64, .f32⟩
  | .local _ .vmem, ⟨1, _⟩ => ⟨S1x8x256x64, .f32⟩
  | .local _ .vmem, ⟨2, _⟩ => ⟨S64x64, .f32⟩
  | .local _ .vmem, ⟨3, _⟩ => ⟨S1x16x512x16, .f32⟩
  | .local _ .vmem, ⟨4, _⟩ => ⟨S1x16x512x16, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x256x64_S1x8x256x64_0_0_0_0 : ∀ a, (![0, 0, 0, 0] : Fin 4 → Nat) a + S1x8x256x64.size a ≤ S1x8x256x64.size a
  h_S1x8x256x64 : 0 < S1x8x256x64.numel
  shapeCasts_S1x8x256x64_S8x256x64 : S1x8x256x64.ShapeCasts S8x256x64
  inb_S64x64_S64x64_0_0 : ∀ a, (![0, 0] : Fin 2 → Nat) a + S64x64.size a ≤ S64x64.size a
  h_S64x64 : 0 < S64x64.numel
  shapeCasts_S8x256x64_S2048x64 : S8x256x64.ShapeCasts S2048x64
  bitsLt_bf16_f32 : FTy.bits .bf16 < FTy.bits .f32
  shapeCasts_S2048x64_S8x256x64 : S2048x64.ShapeCasts S8x256x64
  slices_S8x256x64_o0_0_0_S8x256x16 : S8x256x64.Slices ![0, 0, 0] S8x256x16
  slices_S8x256x64_o0_0_16_S8x256x16 : S8x256x64.Slices ![0, 0, 16] S8x256x16
  slices_S8x256x64_o0_0_32_S8x256x16 : S8x256x64.Slices ![0, 0, 32] S8x256x16
  slices_S8x256x64_o0_0_48_S8x256x16 : S8x256x64.Slices ![0, 0, 48] S8x256x16
  shapeCasts_S8x256x16_S8x256x1x16 : S8x256x16.ShapeCasts S8x256x1x16
  concatenates_S8x256x1x16_S8x256x1x16_S8x256x2x16_d2 : Shape.Concatenates [S8x256x1x16, S8x256x1x16] S8x256x2x16 2
  shapeCasts_S8x256x2x16_S8x512x16 : S8x256x2x16.ShapeCasts S8x512x16
  shapeCasts_S8x512x16_S8x1x512x16 : S8x512x16.ShapeCasts S8x1x512x16
  concatenates_S8x1x512x16_S8x1x512x16_S8x2x512x16_d1 : Shape.Concatenates [S8x1x512x16, S8x1x512x16] S8x2x512x16 1
  shapeCasts_S8x2x512x16_S16x512x16 : S8x2x512x16.ShapeCasts S16x512x16
  inb_S1x16x512x16_S1x16x512x16_0_0_0_0 : ∀ a, (![0, 0, 0, 0] : Fin 4 → Nat) a + S1x16x512x16.size a ≤ S1x16x512x16.size a
  h_S1x16x512x16 : 0 < S1x16x512x16.numel
  shapeCasts_S1x16x512x16_S16x512x16 : S1x16x512x16.ShapeCasts S16x512x16
  shapeCasts_S16x512x16_S1x16x512x16 : S16x512x16.ShapeCasts S1x16x512x16
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x64.size a ≤ S8x256x256x64.size a
  hwx0_0 : ∀ i : grid0.Coords, EltTy.bits .f32 = 32 ∨ (Rect.block (s := S8x256x256x64) S1x8x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512x16.size a ≤ S8x512x512x16.size a
  hwx0_2 : ∀ i : grid0.Coords, EltTy.bits .f32 = 32 ∨ (Rect.block (s := S8x512x512x16) S1x16x512x16.size (cc0_transform_2 i) (hinb0_2 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S1x8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x512x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S8x64x256x256 : Shape := ⟨4, ![8, 64, 256, 256]⟩
abbrev S8x16x4x256x256 : Shape := ⟨5, ![8, 16, 4, 256, 256]⟩
abbrev S8x16x1x256x256 : Shape := ⟨5, ![8, 16, 1, 256, 256]⟩
abbrev S8x16x256x256 : Shape := ⟨4, ![8, 16, 256, 256]⟩
abbrev S8x16x256x256x1 : Shape := ⟨5, ![8, 16, 256, 256, 1]⟩
abbrev S8x16x256x256x2 : Shape := ⟨5, ![8, 16, 256, 256, 2]⟩
abbrev S8x16x256x512 : Shape := ⟨4, ![8, 16, 256, 512]⟩
abbrev S8x16x256x1x512 : Shape := ⟨5, ![8, 16, 256, 1, 512]⟩
abbrev S8x16x256x2x512 : Shape := ⟨5, ![8, 16, 256, 2, 512]⟩
abbrev S8x16x512x512 : Shape := ⟨4, ![8, 16, 512, 512]⟩
abbrev S8x512x512x16 : Shape := ⟨4, ![8, 512, 512, 16]⟩

abbrev nBuf : Space → Nat
  | .hbm => 30
  | .vmem => 0
  | .smem => 0
  | _ => 0

abbrev bufTy : (tb : Table) → Fin (tcTables nBuf tb) → BufTy
  | .hbm, ⟨0, _⟩ => ⟨S8x256x256x64, .f32⟩
  | .hbm, ⟨1, _⟩ => ⟨S8x64x256x256, .f32⟩
  | .hbm, ⟨2, _⟩ => ⟨S8x16x4x256x256, .f32⟩
  | .hbm, ⟨3, _⟩ => ⟨S8x16x1x256x256, .f32⟩
  | .hbm, ⟨4, _⟩ => ⟨S8x16x256x256, .f32⟩
  | .hbm, ⟨5, _⟩ => ⟨S8x16x1x256x256, .f32⟩
  | .hbm, ⟨6, _⟩ => ⟨S8x16x256x256, .f32⟩
  | .hbm, ⟨7, _⟩ => ⟨S8x16x1x256x256, .f32⟩
  | .hbm, ⟨8, _⟩ => ⟨S8x16x256x256, .f32⟩
  | .hbm, ⟨9, _⟩ => ⟨S8x16x1x256x256, .f32⟩
  | .hbm, ⟨10, _⟩ => ⟨S8x16x256x256, .f32⟩
  | .hbm, ⟨11, _⟩ => ⟨S8x16x256x256, .f32⟩
  | .hbm, ⟨12, _⟩ => ⟨S8x16x256x256, .f32⟩
  | .hbm, ⟨13, _⟩ => ⟨S8x16x256x256x1, .f32⟩
  | .hbm, ⟨14, _⟩ => ⟨S8x16x256x256x1, .f32⟩
  | .hbm, ⟨15, _⟩ => ⟨S8x16x256x256x2, .f32⟩
  | .hbm, ⟨16, _⟩ => ⟨S8x16x256x512, .f32⟩
  | .hbm, ⟨17, _⟩ => ⟨S8x16x256x256, .f32⟩
  | .hbm, ⟨18, _⟩ => ⟨S8x16x256x256, .f32⟩
  | .hbm, ⟨19, _⟩ => ⟨S8x16x256x256x1, .f32⟩
  | .hbm, ⟨20, _⟩ => ⟨S8x16x256x256x1, .f32⟩
  | .hbm, ⟨21, _⟩ => ⟨S8x16x256x256x2, .f32⟩
  | .hbm, ⟨22, _⟩ => ⟨S8x16x256x512, .f32⟩
  | .hbm, ⟨23, _⟩ => ⟨S8x16x256x512, .f32⟩
  | .hbm, ⟨24, _⟩ => ⟨S8x16x256x512, .f32⟩
  | .hbm, ⟨25, _⟩ => ⟨S8x16x256x1x512, .f32⟩
  | .hbm, ⟨26, _⟩ => ⟨S8x16x256x1x512, .f32⟩
  | .hbm, ⟨27, _⟩ => ⟨S8x16x256x2x512, .f32⟩
  | .hbm, ⟨28, _⟩ => ⟨S8x16x512x512, .f32⟩
  | .hbm, ⟨29, _⟩ => ⟨S8x512x512x16, .f32⟩
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩

abbrev nD : Nat := 1
abbrev τ : Topo := Topo.v7x

variable {F : FTy → Type} [FloatOps F]

class Facts₀ : Prop where
  transposes_S8x256x256x64_S8x64x256x256_0_3_1_2 : S8x256x256x64.Transposes [0, 3, 1, 2] S8x64x256x256
  shapeCasts_S8x64x256x256_S8x16x4x256x256 : S8x64x256x256.ShapeCasts S8x16x4x256x256
  slices_S8x16x4x256x256_S8x16x1x256x256_0_0_0_0_0 : S8x16x4x256x256.Slices ![0, 0, 0, 0, 0] S8x16x1x256x256
  shapeCasts_S8x16x1x256x256_S8x16x256x256 : S8x16x1x256x256.ShapeCasts S8x16x256x256
  slices_S8x16x4x256x256_S8x16x1x256x256_0_0_1_0_0 : S8x16x4x256x256.Slices ![0, 0, 1, 0, 0] S8x16x1x256x256
  slices_S8x16x4x256x256_S8x16x1x256x256_0_0_2_0_0 : S8x16x4x256x256.Slices ![0, 0, 2, 0, 0] S8x16x1x256x256
  slices_S8x16x4x256x256_S8x16x1x256x256_0_0_3_0_0 : S8x16x4x256x256.Slices ![0, 0, 3, 0, 0] S8x16x1x256x256
  bcast_S8x16x256x256_S8x16x256x256x1_0_1_2_3 : S8x16x256x256.BroadcastsInDim S8x16x256x256x1 (![0, 1, 2, 3] : Fin 4 → Fin S8x16x256x256x1.rank)
  concatenates_S8x16x256x256x1_S8x16x256x256x1_S8x16x256x256x2_d4 : Shape.Concatenates [S8x16x256x256x1, S8x16x256x256x1] S8x16x256x256x2 4
  shapeCasts_S8x16x256x256x2_S8x16x256x512 : S8x16x256x256x2.ShapeCasts S8x16x256x512
  bcast_S8x16x256x512_S8x16x256x1x512_0_1_2_4 : S8x16x256x512.BroadcastsInDim S8x16x256x1x512 (![0, 1, 2, 4] : Fin 4 → Fin S8x16x256x1x512.rank)
  concatenates_S8x16x256x1x512_S8x16x256x1x512_S8x16x256x2x512_d3 : Shape.Concatenates [S8x16x256x1x512, S8x16x256x1x512] S8x16x256x2x512 3
  shapeCasts_S8x16x256x2x512_S8x16x512x512 : S8x16x256x2x512.ShapeCasts S8x16x512x512
  transposes_S8x16x512x512_S8x512x512x16_0_2_3_1 : S8x16x512x512.Transposes [0, 2, 3, 1] S8x512x512x16

variable [Facts₀]

class Facts : Prop extends Facts₀ where

variable [Facts]
-- ==== Proof.Mix.lean ====
/-
  The function both programs compute.

  The 64 channels of an input pixel are 16 groups of 4 sub-bands `a, b, c, d` (channel `4 g + k` is sub-band
  `k` of group `g`). Each input pixel `(h, w)` of group `g` becomes a 2 × 2 block of output pixels:

      (2h,   2w)   ↦ (a + b) + (c + d)        (2h,   2w+1) ↦ (a - b) + (c - d)
      (2h+1, 2w)   ↦ (a + b) - (c + d)        (2h+1, 2w+1) ↦ (a - b) - (c - d)

  so with `mix p u v` the sum when `p = 0` and the difference otherwise, the output at `(b, i, j, g)` is
  `mix (i % 2) (mix (j % 2) a b) (mix (j % 2) c d)` of the sub-bands at input pixel `(i / 2, j / 2)`.
  No algebraic law is needed between the two programs: both build exactly this tree of sums and differences.
-/
import Idealize.ShloMosaic.PureOps.Ideal
import Idealize.ShloMosaic.Lib.ValueIdx

noncomputable section

namespace Cert.Rewavelet

open Idealize.ShloMosaic Idealize.ShloMosaic.ValueIdx

/-- The sum at parity 0, the difference at parity 1. -/
def mix (p : Nat) (u v : EReal) : EReal := if p = 0 then u + v else u - v

theorem mix_zero (u v : EReal) : mix 0 u v = u + v := if_pos rfl

theorem mix_one (u v : EReal) : mix 1 u v = u - v := if_neg (by decide)

/-- Channel `4 g + k`: sub-band `k` of group `g`. -/
def chan (g : Fin 16) (k : Fin 4) : Fin 64 := ⟨4 * g.val + k.val, by omega⟩

/-- The input row or column an output row or column comes from. -/
def half (n : Fin 512) : Fin 256 := ⟨n.val / 2, by omega⟩

/-- One output entry from the four sub-bands of its input pixel. -/
def quad (p q : Nat) (a b c d : EReal) : EReal := mix p (mix q a b) (mix q c d)

/-- The output at batch `b`, row `i`, column `j`, group `g`. -/
def Gat (x : (⟨4, ![8, 256, 256, 64]⟩ : Shape).Idx → EReal) (b : Fin 8) (i j : Fin 512) (g : Fin 16) : EReal :=
  quad (i.val % 2) (j.val % 2)
    (x (ix4 b (half i) (half j) (chan g 0))) (x (ix4 b (half i) (half j) (chan g 1)))
    (x (ix4 b (half i) (half j) (chan g 2))) (x (ix4 b (half i) (half j) (chan g 3)))

/-- The whole output array as one function of the input array. -/
def G (x : (⟨4, ![8, 256, 256, 64]⟩ : Shape).Idx → EReal) : (⟨4, ![8, 512, 512, 16]⟩ : Shape).Idx → EReal :=
  fun j => Gat x (j 0) (j 1) (j 2) (j 3)

theorem G_ix4 (x : (⟨4, ![8, 256, 256, 64]⟩ : Shape).Idx → EReal) (b : Fin 8) (i j : Fin 512) (g : Fin 16) :
    G x (ix4 b i j g) = Gat x b i j g := rfl

end Cert.Rewavelet

end
-- ==== Proof.Interleave.lean ====
/-
  Interleaving two arrays along an axis, as both programs spell it.

  Stacking two arrays `u`, `v` of one shape along a NEW axis of extent 2 placed right after axis `a`, and then
  merging that new axis into axis `a`, gives an array twice as long on axis `a` whose entry at position
  `2 n + p` (`p < 2`) is `u`'s entry at `n` when `p = 0` and `v`'s when `p = 1`: the row-major position of
  `(…, n, p, …)` in the stacked array is that of `(…, 2 n + p, …)` in the merged one.

  The kernel stacks by a shape cast that adds the unit axis followed by a two-piece concatenation; the reference
  stacks by a broadcast onto the unit axis followed by the same concatenation. Four instances are needed, at the
  literal extents of the two programs: the kernel's tile [8, 256, 16] interleaved along its columns and then
  [8, 512, 16] along its rows, the reference's array [8, 16, 256, 256] along its last axis and then
  [8, 16, 256, 512] along the axis before it.
-/
import Idealize.ShloMosaic.Lib.Pipeline.Value
import Idealize.ShloMosaic.Lib.ValueIdx

noncomputable section

namespace Cert.Rewavelet

open Idealize.ShloMosaic Idealize.ShloMosaic.ValueIdx

variable {α : Type}

/-- The kernel's column interleave: [8, 256, 16] twice, stacked to [8, 256, 2, 16], merged to [8, 512, 16].
    Column `2 n + p` of the result is column `n` of `u` (`p = 0`) or of `v` (`p = 1`). -/
theorem tile_cols_interleave (u v : (⟨3, ![8, 256, 16]⟩ : Shape).Idx → α)
    (h1 : (⟨3, ![8, 256, 16]⟩ : Shape).ShapeCasts ⟨4, ![8, 256, 1, 16]⟩)
    (hc : Shape.Concatenates [⟨4, ![8, 256, 1, 16]⟩, ⟨4, ![8, 256, 1, 16]⟩] ⟨4, ![8, 256, 2, 16]⟩ 2)
    (h2 : (⟨4, ![8, 256, 2, 16]⟩ : Shape).ShapeCasts ⟨3, ![8, 512, 16]⟩)
    (r : Fin 8) (c : Fin 512) (g : Fin 16) (n : Fin 256) (p : Nat) (hp : p < 2) (hn : c.val = 2 * n.val + p) :
    shapeCast ⟨3, ![8, 512, 16]⟩
      (concatenate ⟨4, ![8, 256, 2, 16]⟩ 2
        [⟨⟨4, ![8, 256, 1, 16]⟩, shapeCast ⟨4, ![8, 256, 1, 16]⟩ u h1⟩,
         ⟨⟨4, ![8, 256, 1, 16]⟩, shapeCast ⟨4, ![8, 256, 1, 16]⟩ v h1⟩] hc) h2 (ix3 r c g)
      = if p = 0 then u (ix3 r n g) else v (ix3 r n g) := by
  have hp' : p = 0 ∨ p = 1 := by omega
  rcases hp' with rfl | rfl
  · rw [if_pos rfl]
    refine (shapeCast_apply _ h2 (ix3 r c g) (ix4 r n (0 : Fin 2) g) ?_).trans ?_
    · rw [Shape.rowMajor_val_four, Shape.rowMajor_val_three]
      show ((r.val * 256 + n.val) * 2 + 0) * 16 + g.val = (r.val * 512 + c.val) * 16 + g.val
      omega
    · refine (concatenate_pair_apply_left (t := ⟨4, ![8, 256, 2, 16]⟩) (s₁ := ⟨4, ![8, 256, 1, 16]⟩) (s₂ := ⟨4, ![8, 256, 1, 16]⟩) (2 : Fin 4) _ _ hc (ix4 r n (0 : Fin 2) g) rfl (ix4 r n (0 : Fin 1) g) ?_).trans ?_
      · intro b
        match b with
        | ⟨0, _⟩ => rfl
        | ⟨1, _⟩ => rfl
        | ⟨2, _⟩ => rfl
        | ⟨3, _⟩ => rfl
      · refine shapeCast_apply u h1 (ix4 r n (0 : Fin 1) g) (ix3 r n g) ?_
        rw [Shape.rowMajor_val_four, Shape.rowMajor_val_three]
        show (r.val * 256 + n.val) * 16 + g.val = ((r.val * 256 + n.val) * 1 + 0) * 16 + g.val
        omega
  · rw [if_neg (by decide)]
    refine (shapeCast_apply _ h2 (ix3 r c g) (ix4 r n (1 : Fin 2) g) ?_).trans ?_
    · rw [Shape.rowMajor_val_four, Shape.rowMajor_val_three]
      show ((r.val * 256 + n.val) * 2 + 1) * 16 + g.val = (r.val * 512 + c.val) * 16 + g.val
      omega
    · refine (concatenate_pair_apply_right (t := ⟨4, ![8, 256, 2, 16]⟩) (s₁ := ⟨4, ![8, 256, 1, 16]⟩) (s₂ := ⟨4, ![8, 256, 1, 16]⟩) (2 : Fin 4) _ _ hc (ix4 r n (1 : Fin 2) g) rfl rfl (ix4 r n (0 : Fin 1) g) ?_ rfl).trans ?_
      · intro b
        match b with
        | ⟨0, _⟩ => exact fun _ => rfl
        | ⟨1, _⟩ => exact fun _ => rfl
        | ⟨2, _⟩ => exact fun hne => absurd rfl hne
        | ⟨3, _⟩ => exact fun _ => rfl
      · refine shapeCast_apply v h1 (ix4 r n (0 : Fin 1) g) (ix3 r n g) ?_
        rw [Shape.rowMajor_val_four, Shape.rowMajor_val_three]
        show (r.val * 256 + n.val) * 16 + g.val = ((r.val * 256 + n.val) * 1 + 0) * 16 + g.val
        omega

/-- The kernel's row interleave: [8, 512, 16] twice, stacked to [8, 2, 512, 16], merged to [16, 512, 16].
    Row `2 n + p` of the result is row `n` of `u` (`p = 0`) or of `v` (`p = 1`). -/
theorem tile_rows_interleave (u v : (⟨3, ![8, 512, 16]⟩ : Shape).Idx → α)
    (h1 : (⟨3, ![8, 512, 16]⟩ : Shape).ShapeCasts ⟨4, ![8, 1, 512, 16]⟩)
    (hc : Shape.Concatenates [⟨4, ![8, 1, 512, 16]⟩, ⟨4, ![8, 1, 512, 16]⟩] ⟨4, ![8, 2, 512, 16]⟩ 1)
    (h2 : (⟨4, ![8, 2, 512, 16]⟩ : Shape).ShapeCasts ⟨3, ![16, 512, 16]⟩)
    (r : Fin 16) (c : Fin 512) (g : Fin 16) (n : Fin 8) (p : Nat) (hp : p < 2) (hn : r.val = 2 * n.val + p) :
    shapeCast ⟨3, ![16, 512, 16]⟩
      (concatenate ⟨4, ![8, 2, 512, 16]⟩ 1
        [⟨⟨4, ![8, 1, 512, 16]⟩, shapeCast ⟨4, ![8, 1, 512, 16]⟩ u h1⟩,
         ⟨⟨4, ![8, 1, 512, 16]⟩, shapeCast ⟨4, ![8, 1, 512, 16]⟩ v h1⟩] hc) h2 (ix3 r c g)
      = if p = 0 then u (ix3 n c g) else v (ix3 n c g) := by
  have hp' : p = 0 ∨ p = 1 := by omega
  rcases hp' with rfl | rfl
  · rw [if_pos rfl]
    refine (shapeCast_apply _ h2 (ix3 r c g) (ix4 n (0 : Fin 2) c g) ?_).trans ?_
    · rw [Shape.rowMajor_val_four, Shape.rowMajor_val_three]
      show ((n.val * 2 + 0) * 512 + c.val) * 16 + g.val = (r.val * 512 + c.val) * 16 + g.val
      omega
    · refine (concatenate_pair_apply_left (t := ⟨4, ![8, 2, 512, 16]⟩) (s₁ := ⟨4, ![8, 1, 512, 16]⟩) (s₂ := ⟨4, ![8, 1, 512, 16]⟩) (1 : Fin 4) _ _ hc (ix4 n (0 : Fin 2) c g) rfl (ix4 n (0 : Fin 1) c g) ?_).trans ?_
      · intro b
        match b with
        | ⟨0, _⟩ => rfl
        | ⟨1, _⟩ => rfl
        | ⟨2, _⟩ => rfl
        | ⟨3, _⟩ => rfl
      · refine shapeCast_apply u h1 (ix4 n (0 : Fin 1) c g) (ix3 n c g) ?_
        rw [Shape.rowMajor_val_four, Shape.rowMajor_val_three]
        show (n.val * 512 + c.val) * 16 + g.val = ((n.val * 1 + 0) * 512 + c.val) * 16 + g.val
        omega
  · rw [if_neg (by decide)]
    refine (shapeCast_apply _ h2 (ix3 r c g) (ix4 n (1 : Fin 2) c g) ?_).trans ?_
    · rw [Shape.rowMajor_val_four, Shape.rowMajor_val_three]
      show ((n.val * 2 + 1) * 512 + c.val) * 16 + g.val = (r.val * 512 + c.val) * 16 + g.val
      omega
    · refine (concatenate_pair_apply_right (t := ⟨4, ![8, 2, 512, 16]⟩) (s₁ := ⟨4, ![8, 1, 512, 16]⟩) (s₂ := ⟨4, ![8, 1, 512, 16]⟩) (1 : Fin 4) _ _ hc (ix4 n (1 : Fin 2) c g) rfl rfl (ix4 n (0 : Fin 1) c g) ?_ rfl).trans ?_
      · intro b
        match b with
        | ⟨0, _⟩ => exact fun _ => rfl
        | ⟨1, _⟩ => exact fun hne => absurd rfl hne
        | ⟨2, _⟩ => exact fun _ => rfl
        | ⟨3, _⟩ => exact fun _ => rfl
      · refine shapeCast_apply v h1 (ix4 n (0 : Fin 1) c g) (ix3 n c g) ?_
        rw [Shape.rowMajor_val_four, Shape.rowMajor_val_three]
        show (n.val * 512 + c.val) * 16 + g.val = ((n.val * 1 + 0) * 512 + c.val) * 16 + g.val
        omega

/-- The reference's interleave along the last axis: [8, 16, 256, 256] twice, each broadcast onto a trailing unit
    axis, stacked to [8, 16, 256, 256, 2], merged to [8, 16, 256, 512]. Column `2 n + p` of the result is column
    `n` of `u` (`p = 0`) or of `v` (`p = 1`). -/
theorem planes_cols_interleave (u v : (⟨4, ![8, 16, 256, 256]⟩ : Shape).Idx → α)
    (hb : (⟨4, ![8, 16, 256, 256]⟩ : Shape).BroadcastsInDim ⟨5, ![8, 16, 256, 256, 1]⟩ ![0, 1, 2, 3])
    (hc : Shape.Concatenates [⟨5, ![8, 16, 256, 256, 1]⟩, ⟨5, ![8, 16, 256, 256, 1]⟩] ⟨5, ![8, 16, 256, 256, 2]⟩ 4)
    (h2 : (⟨5, ![8, 16, 256, 256, 2]⟩ : Shape).ShapeCasts ⟨4, ![8, 16, 256, 512]⟩)
    (b : Fin 8) (g : Fin 16) (i : Fin 256) (c : Fin 512) (n : Fin 256) (p : Nat) (hp : p < 2) (hn : c.val = 2 * n.val + p) :
    shapeCast ⟨4, ![8, 16, 256, 512]⟩
      (concatenate ⟨5, ![8, 16, 256, 256, 2]⟩ 4
        [⟨⟨5, ![8, 16, 256, 256, 1]⟩, broadcastInDim ⟨5, ![8, 16, 256, 256, 1]⟩ ![0, 1, 2, 3] hb u⟩,
         ⟨⟨5, ![8, 16, 256, 256, 1]⟩, broadcastInDim ⟨5, ![8, 16, 256, 256, 1]⟩ ![0, 1, 2, 3] hb v⟩] hc) h2 (ix4 b g i c)
      = if p = 0 then u (ix4 b g i n) else v (ix4 b g i n) := by
  have hk : ∀ a : Fin 4, ((ix4 b g i n) a).val
      = if (⟨4, ![8, 16, 256, 256]⟩ : Shape).size a = 1 then 0
        else ((ix5 b g i n (0 : Fin 1)) ((![0, 1, 2, 3] : Fin 4 → Fin 5) a)).val := fun a =>
    match a with
    | ⟨0, _⟩ => by show b.val = if (8 : Nat) = 1 then 0 else b.val; rw [if_neg (by decide)]
    | ⟨1, _⟩ => by show g.val = if (16 : Nat) = 1 then 0 else g.val; rw [if_neg (by decide)]
    | ⟨2, _⟩ => by show i.val = if (256 : Nat) = 1 then 0 else i.val; rw [if_neg (by decide)]
    | ⟨3, _⟩ => by show n.val = if (256 : Nat) = 1 then 0 else n.val; rw [if_neg (by decide)]
  have hp' : p = 0 ∨ p = 1 := by omega
  rcases hp' with rfl | rfl
  · rw [if_pos rfl]
    refine (shapeCast_apply _ h2 (ix4 b g i c) (ix5 b g i n (0 : Fin 2)) ?_).trans ?_
    · rw [Shape.rowMajor_val_five, Shape.rowMajor_val_four]
      show (((b.val * 16 + g.val) * 256 + i.val) * 256 + n.val) * 2 + 0 = ((b.val * 16 + g.val) * 256 + i.val) * 512 + c.val
      omega
    · refine (concatenate_pair_apply_left (t := ⟨5, ![8, 16, 256, 256, 2]⟩) (s₁ := ⟨5, ![8, 16, 256, 256, 1]⟩) (s₂ := ⟨5, ![8, 16, 256, 256, 1]⟩) (4 : Fin 5) _ _ hc (ix5 b g i n (0 : Fin 2)) rfl (ix5 b g i n (0 : Fin 1)) ?_).trans ?_
      · intro a
        match a with
        | ⟨0, _⟩ => rfl
        | ⟨1, _⟩ => rfl
        | ⟨2, _⟩ => rfl
        | ⟨3, _⟩ => rfl
        | ⟨4, _⟩ => rfl
      · exact broadcastInDim_apply _ hb u (ix5 b g i n (0 : Fin 1)) (ix4 b g i n) hk
  · rw [if_neg (by decide)]
    refine (shapeCast_apply _ h2 (ix4 b g i c) (ix5 b g i n (1 : Fin 2)) ?_).trans ?_
    · rw [Shape.rowMajor_val_five, Shape.rowMajor_val_four]
      show (((b.val * 16 + g.val) * 256 + i.val) * 256 + n.val) * 2 + 1 = ((b.val * 16 + g.val) * 256 + i.val) * 512 + c.val
      omega
    · refine (concatenate_pair_apply_right (t := ⟨5, ![8, 16, 256, 256, 2]⟩) (s₁ := ⟨5, ![8, 16, 256, 256, 1]⟩) (s₂ := ⟨5, ![8, 16, 256, 256, 1]⟩) (4 : Fin 5) _ _ hc (ix5 b g i n (1 : Fin 2)) rfl rfl (ix5 b g i n (0 : Fin 1)) ?_ rfl).trans ?_
      · intro a
        match a with
        | ⟨0, _⟩ => exact fun _ => rfl
        | ⟨1, _⟩ => exact fun _ => rfl
        | ⟨2, _⟩ => exact fun _ => rfl
        | ⟨3, _⟩ => exact fun _ => rfl
        | ⟨4, _⟩ => exact fun hne => absurd rfl hne
      · exact broadcastInDim_apply _ hb v (ix5 b g i n (0 : Fin 1)) (ix4 b g i n) hk

/-- The reference's interleave along the axis before the last: [8, 16, 256, 512] twice, each broadcast onto a unit
    axis before the last, stacked to [8, 16, 256, 2, 512], merged to [8, 16, 512, 512]. Row `2 n + p` of the result
    is row `n` of `u` (`p = 0`) or of `v` (`p = 1`). -/
theorem planes_rows_interleave (u v : (⟨4, ![8, 16, 256, 512]⟩ : Shape).Idx → α)
    (hb : (⟨4, ![8, 16, 256, 512]⟩ : Shape).BroadcastsInDim ⟨5, ![8, 16, 256, 1, 512]⟩ ![0, 1, 2, 4])
    (hc : Shape.Concatenates [⟨5, ![8, 16, 256, 1, 512]⟩, ⟨5, ![8, 16, 256, 1, 512]⟩] ⟨5, ![8, 16, 256, 2, 512]⟩ 3)
    (h2 : (⟨5, ![8, 16, 256, 2, 512]⟩ : Shape).ShapeCasts ⟨4, ![8, 16, 512, 512]⟩)
    (b : Fin 8) (g : Fin 16) (i : Fin 512) (c : Fin 512) (n : Fin 256) (p : Nat) (hp : p < 2) (hn : i.val = 2 * n.val + p) :
    shapeCast ⟨4, ![8, 16, 512, 512]⟩
      (concatenate ⟨5, ![8, 16, 256, 2, 512]⟩ 3
        [⟨⟨5, ![8, 16, 256, 1, 512]⟩, broadcastInDim ⟨5, ![8, 16, 256, 1, 512]⟩ ![0, 1, 2, 4] hb u⟩,
         ⟨⟨5, ![8, 16, 256, 1, 512]⟩, broadcastInDim ⟨5, ![8, 16, 256, 1, 512]⟩ ![0, 1, 2, 4] hb v⟩] hc) h2 (ix4 b g i c)
      = if p = 0 then u (ix4 b g n c) else v (ix4 b g n c) := by
  have hk : ∀ a : Fin 4, ((ix4 b g n c) a).val
      = if (⟨4, ![8, 16, 256, 512]⟩ : Shape).size a = 1 then 0
        else ((ix5 b g n (0 : Fin 1) c) ((![0, 1, 2, 4] : Fin 4 → Fin 5) a)).val := fun a =>
    match a with
    | ⟨0, _⟩ => by show b.val = if (8 : Nat) = 1 then 0 else b.val; rw [if_neg (by decide)]
    | ⟨1, _⟩ => by show g.val = if (16 : Nat) = 1 then 0 else g.val; rw [if_neg (by decide)]
    | ⟨2, _⟩ => by show n.val = if (256 : Nat) = 1 then 0 else n.val; rw [if_neg (by decide)]
    | ⟨3, _⟩ => by show c.val = if (512 : Nat) = 1 then 0 else c.val; rw [if_neg (by decide)]
  have hp' : p = 0 ∨ p = 1 := by omega
  rcases hp' with rfl | rfl
  · rw [if_pos rfl]
    refine (shapeCast_apply _ h2 (ix4 b g i c) (ix5 b g n (0 : Fin 2) c) ?_).trans ?_
    · rw [Shape.rowMajor_val_five, Shape.rowMajor_val_four]
      show (((b.val * 16 + g.val) * 256 + n.val) * 2 + 0) * 512 + c.val = ((b.val * 16 + g.val) * 512 + i.val) * 512 + c.val
      omega
    · refine (concatenate_pair_apply_left (t := ⟨5, ![8, 16, 256, 2, 512]⟩) (s₁ := ⟨5, ![8, 16, 256, 1, 512]⟩) (s₂ := ⟨5, ![8, 16, 256, 1, 512]⟩) (3 : Fin 5) _ _ hc (ix5 b g n (0 : Fin 2) c) rfl (ix5 b g n (0 : Fin 1) c) ?_).trans ?_
      · intro a
        match a with
        | ⟨0, _⟩ => rfl
        | ⟨1, _⟩ => rfl
        | ⟨2, _⟩ => rfl
        | ⟨3, _⟩ => rfl
        | ⟨4, _⟩ => rfl
      · exact broadcastInDim_apply _ hb u (ix5 b g n (0 : Fin 1) c) (ix4 b g n c) hk
  · rw [if_neg (by decide)]
    refine (shapeCast_apply _ h2 (ix4 b g i c) (ix5 b g n (1 : Fin 2) c) ?_).trans ?_
    · rw [Shape.rowMajor_val_five, Shape.rowMajor_val_four]
      show (((b.val * 16 + g.val) * 256 + n.val) * 2 + 1) * 512 + c.val = ((b.val * 16 + g.val) * 512 + i.val) * 512 + c.val
      omega
    · refine (concatenate_pair_apply_right (t := ⟨5, ![8, 16, 256, 2, 512]⟩) (s₁ := ⟨5, ![8, 16, 256, 1, 512]⟩) (s₂ := ⟨5, ![8, 16, 256, 1, 512]⟩) (3 : Fin 5) _ _ hc (ix5 b g n (1 : Fin 2) c) rfl rfl (ix5 b g n (0 : Fin 1) c) ?_ rfl).trans ?_
      · intro a
        match a with
        | ⟨0, _⟩ => exact fun _ => rfl
        | ⟨1, _⟩ => exact fun _ => rfl
        | ⟨2, _⟩ => exact fun _ => rfl
        | ⟨3, _⟩ => exact fun hne => absurd rfl hne
        | ⟨4, _⟩ => exact fun _ => rfl
      · exact broadcastInDim_apply _ hb v (ix5 b g n (0 : Fin 1) c) (ix4 b g n c) hk

end Cert.Rewavelet

end
-- ==== Proof.Payload.lean ====
/-
  The kernel body's stored value, read at an index.

  The body flattens its [8, 256, 64] input tile to 2048 rows of 64 channels and multiplies it by the 64 × 64
  matrix it loads; at the ideal values the product at `(row, n)` is the plain sum over `k` of
  `tile (row, k) · matrix (k, n)` (the roundings to bf16 on the way in are the identity there). When the matrix
  is the 0/1 matrix with its single 1 of row `c = 4 g + k` in column `16 k + g`, every term but one vanishes
  and the product at column `16 k + g` is channel `4 g + k` of the tile's row: the four 16-column slices of the
  product are the sub-band planes `a, b, c, d`. Their sums and differences are then interleaved along the
  columns and along the rows exactly as in `Mix.lean`.
-/
import proofs.«161214_j24541443129858_2_alg».proof.Proof.Gen.KernelIdeal.Skeleton
import proofs.«161214_j24541443129858_2_alg».proof.Proof.Mix
import proofs.«161214_j24541443129858_2_alg».proof.Proof.Interleave
import Idealize.ShloMosaic.PureOps.Ideal.Laws

noncomputable section

namespace Cert.Rewavelet.Ker

open Cert.KernelIdeal Cert.KernelIdeal.Gen Cert.Rewavelet Idealize.ShloMosaic Idealize.ShloMosaic.ValueIdx

/-! ## The matrix product at an index -/

theorem lhs_row (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl

theorem lhs_col (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q

theorem rhs_row (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q

theorem rhs_col (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- The product into a zero accumulator at `(ρ, n)` is the sum over the 64 contracted positions. -/
theorem product_at (y : FVec Ideal S2048x64 .bf16) (s : FVec Ideal S64x64 .bf16) (ρ : Fin 2048) (n : Fin 64) :
    matmul dot_S2048x64_S64x64_S2048x64_1_0_0_1_n_n none y s (constant (F := Ideal) S2048x64 .f32 0x00000000#32) (ix2 ρ n)
      = ∑ k : Fin 64, y (ix2 ρ k) * s (ix2 k n) := by
  refine (Ideal.matmul_constant_zero_apply dot_S2048x64_S64x64_S2048x64_1_0_0_1_n_n none y s (ix2 ρ n)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 ρ n) ((contrEquiv1 dot_S2048x64_S64x64_S2048x64_1_0_0_1_n_n 64 rfl rfl).symm k) = ix2 ρ k :=
    funext fun a => Fin.ext (by
      match a with
      | ⟨0, _⟩ => exact lhs_row _ _
      | ⟨1, _⟩ => exact (lhs_col _ _).trans hk)
  have er : dot_S2048x64_S64x64_S2048x64_1_0_0_1_n_n.rhsIdx (ix2 ρ n) ((contrEquiv1 dot_S2048x64_S64x64_S2048x64_1_0_0_1_n_n 64 rfl rfl).symm k) = ix2 k n :=
    funext fun a => Fin.ext (by
      match a with
      | ⟨0, _⟩ => exact (rhs_row _ _).trans hk
      | ⟨1, _⟩ => exact rhs_col _ _)
  rw [el, er]

/-- The product of the flattened tile with the loaded matrix, viewed again as [8, 256, 64]. -/
def gathered (x0 : Vec Ideal S1x8x256x64 .f32) (x1 : Vec Ideal S64x64 .f32) : FVec Ideal S8x256x64 .f32 :=
  shapeCast S8x256x64
    (matmul dot_S2048x64_S64x64_S2048x64_1_0_0_1_n_n none
      (truncf .bf16 (shapeCast S2048x64 (shapeCast S8x256x64 x0 shapeCasts_S1x8x256x64_S8x256x64) shapeCasts_S8x256x64_S2048x64) bitsLt_bf16_f32)
      (truncf .bf16 x1 bitsLt_bf16_f32) (constant (F := Ideal) S2048x64 .f32 0x00000000#32))
    shapeCasts_S2048x64_S8x256x64

/-- At tile row `r`, column `w`, the product's entry `n` is the sum over channels. -/
theorem gathered_sum (x0 : Vec Ideal S1x8x256x64 .f32) (x1 : Vec Ideal S64x64 .f32) (r : Fin 8) (w : Fin 256) (n : Fin 64) :
    gathered x0 x1 (ix3 r w n) = ∑ k : Fin 64, x0 (ix4 (0 : Fin 1) r w k) * x1 (ix2 k n) := by
  unfold gathered
  refine (shapeCast_apply _ _ (ix3 r w n) (ix2 (⟨256 * r.val + w.val, by omega⟩ : Fin 2048) n) ?_).trans ?_
  · rw [Shape.rowMajor_val_two, Shape.rowMajor_val_three]
    show (256 * r.val + w.val) * 64 + n.val = (r.val * 256 + w.val) * 64 + n.val
    omega
  · refine (product_at _ _ _ _).trans ?_
    refine Finset.sum_congr rfl fun k _ => ?_
    refine congrArg (· * x1 (ix2 k n)) ?_
    show shapeCast S2048x64 (shapeCast S8x256x64 x0 shapeCasts_S1x8x256x64_S8x256x64) shapeCasts_S8x256x64_S2048x64
      (ix2 (⟨256 * r.val + w.val, by omega⟩ : Fin 2048) k) = _
    refine (shapeCast_apply _ _ (ix2 (⟨256 * r.val + w.val, by omega⟩ : Fin 2048) k) (ix3 r w k) ?_).trans ?_
    · rw [Shape.rowMajor_val_two, Shape.rowMajor_val_three]
      show (r.val * 256 + w.val) * 64 + k.val = (256 * r.val + w.val) * 64 + k.val
      omega
    · refine shapeCast_apply x0 _ (ix3 r w k) (ix4 (0 : Fin 1) r w k) ?_
      rw [Shape.rowMajor_val_three, Shape.rowMajor_val_four]
      show ((0 * 8 + r.val) * 256 + w.val) * 64 + k.val = (r.val * 256 + w.val) * 64 + k.val
      omega

/-- With the 0/1 matrix whose row `c` has its single 1 in column `16 (c % 4) + c / 4`, the product's entry
    `16 k + g` is channel `4 g + k`: one term of the sum survives. -/
theorem gathered_sel (x0 : Vec Ideal S1x8x256x64 .f32) (x1 : Vec Ideal S64x64 .f32)
    (hsel : ∀ c n : Fin 64, x1 (ix2 c n) = if n.val = 16 * (c.val % 4) + c.val / 4 then 1 else 0)
    (r : Fin 8) (w : Fin 256) (g : Fin 16) (k : Nat) (hk : k < 4) (o : Nat) (ho : o = 16 * k) :
    gathered x0 x1 (ix3 r w (⟨o + g.val, by omega⟩ : Fin 64))
      = x0 (ix4 (0 : Fin 1) r w (⟨4 * g.val + k, by omega⟩ : Fin 64)) := by
  subst ho
  rw [gathered_sum]
  rw [Finset.sum_eq_single (⟨4 * g.val + k, by omega⟩ : Fin 64)]
  · rw [hsel, if_pos (by show 16 * k + g.val = 16 * ((4 * g.val + k) % 4) + (4 * g.val + k) / 4; omega), mul_one]
  · intro c _ hc
    rw [hsel, if_neg, mul_zero]
    intro h
    apply hc
    apply Fin.ext
    show c.val = 4 * g.val + k
    have h' : 16 * k + g.val = 16 * (c.val % 4) + c.val / 4 := h
    omega
  · intro h
    exact absurd (Finset.mem_univ _) h

/-! ## The four sub-band planes of the product, and the stored tile -/

/-- A 16-column slice of the product at offset `o`. -/
theorem band_at (y : FVec Ideal S8x256x64 .f32) (o : Nat) (ho : o + 16 ≤ 64) (hs : S8x256x64.Slices ![0, 0, o] S8x256x16)
    (r : Fin 8) (w : Fin 256) (g : Fin 16) :
    extractStridedSlice S8x256x16 ![0, 0, o] y hs (ix3 r w g) = y (ix3 r w (⟨o + g.val, by omega⟩ : Fin 64)) :=
  extractStridedSlice_apply _ y hs (ix3 r w g) (ix3 r w (⟨o + g.val, by omega⟩ : Fin 64)) (fun a =>
    match a with
    | ⟨0, _⟩ => by show r.val = 0 + r.val; omega
    | ⟨1, _⟩ => by show w.val = 0 + w.val; omega
    | ⟨2, _⟩ => rfl)

/-- The stored tile as a function of the product `y`: the four planes' sums and differences, interleaved along the
    columns, then along the rows, under a leading unit axis. -/
def tileOf (y : FVec Ideal S8x256x64 .f32) : FVec Ideal S1x16x512x16 .f32 :=
  have v8 : FVec Ideal S8x256x16 .f32 := extractStridedSlice S8x256x16 ![0, 0, 0] y slices_S8x256x64_o0_0_0_S8x256x16
  have v9 : FVec Ideal S8x256x16 .f32 := extractStridedSlice S8x256x16 ![0, 0, 16] y slices_S8x256x64_o0_0_16_S8x256x16
  have v10 : FVec Ideal S8x256x16 .f32 := extractStridedSlice S8x256x16 ![0, 0, 32] y slices_S8x256x64_o0_0_32_S8x256x16
  have v11 : FVec Ideal S8x256x16 .f32 := extractStridedSlice S8x256x16 ![0, 0, 48] y slices_S8x256x64_o0_0_48_S8x256x16
  shapeCast S1x16x512x16
    (shapeCast S16x512x16
      (concatenate S8x2x512x16 1
        [⟨S8x1x512x16, shapeCast S8x1x512x16
            (shapeCast S8x512x16
              (concatenate S8x256x2x16 2
                [⟨S8x256x1x16, shapeCast S8x256x1x16 (addf (addf v8 v9) (addf v10 v11)) shapeCasts_S8x256x16_S8x256x1x16⟩,
                 ⟨S8x256x1x16, shapeCast S8x256x1x16 (addf (subf v8 v9) (subf v10 v11)) shapeCasts_S8x256x16_S8x256x1x16⟩]
                concatenates_S8x256x1x16_S8x256x1x16_S8x256x2x16_d2)
              shapeCasts_S8x256x2x16_S8x512x16)
            shapeCasts_S8x512x16_S8x1x512x16⟩,
         ⟨S8x1x512x16, shapeCast S8x1x512x16
            (shapeCast S8x512x16
              (concatenate S8x256x2x16 2
                [⟨S8x256x1x16, shapeCast S8x256x1x16 (subf (addf v8 v9) (addf v10 v11)) shapeCasts_S8x256x16_S8x256x1x16⟩,
                 ⟨S8x256x1x16, shapeCast S8x256x1x16 (subf (subf v8 v9) (subf v10 v11)) shapeCasts_S8x256x16_S8x256x1x16⟩]
                concatenates_S8x256x1x16_S8x256x1x16_S8x256x2x16_d2)
              shapeCasts_S8x256x2x16_S8x512x16)
            shapeCasts_S8x512x16_S8x1x512x16⟩]
        concatenates_S8x1x512x16_S8x1x512x16_S8x2x512x16_d1)
      shapeCasts_S8x2x512x16_S16x512x16)
    shapeCasts_S16x512x16_S1x16x512x16

/-- The body's stored value is the tile of the product. -/
theorem pay_eq (x0 : Vec Ideal S1x8x256x64 .f32) (x1 : Vec Ideal S64x64 .f32) :
    k0_pay1 x0 x1 = tileOf (gathered x0 x1) := rfl

/-- The tile at row `i`, column `j`, group `g`, from the product's entries at tile row `i / 2`, column `j / 2`. -/
theorem tileOf_at (y : FVec Ideal S8x256x64 .f32) (i : Fin 16) (j : Fin 512) (g : Fin 16) (n : Fin 8) (hn : n.val = i.val / 2) :
    tileOf y (ix4 (0 : Fin 1) i j g)
      = quad (i.val % 2) (j.val % 2)
          (y (ix3 n (half j) (⟨0 + g.val, by omega⟩ : Fin 64))) (y (ix3 n (half j) (⟨16 + g.val, by omega⟩ : Fin 64)))
          (y (ix3 n (half j) (⟨32 + g.val, by omega⟩ : Fin 64))) (y (ix3 n (half j) (⟨48 + g.val, by omega⟩ : Fin 64))) := by
  unfold tileOf
  refine (shapeCast_apply _ _ (ix4 (0 : Fin 1) i j g) (ix3 i j g) ?_).trans ?_
  · rw [Shape.rowMajor_val_three, Shape.rowMajor_val_four]
    show (i.val * 512 + j.val) * 16 + g.val = ((0 * 16 + i.val) * 512 + j.val) * 16 + g.val
    omega
  refine (tile_rows_interleave _ _ _ _ _ i j g n (i.val % 2) (Nat.mod_lt _ (by decide)) (by omega)).trans ?_
  have hj : j.val = 2 * (half j).val + j.val % 2 := by show j.val = 2 * (j.val / 2) + j.val % 2; omega
  rw [tile_cols_interleave _ _ _ _ _ n j g (half j) (j.val % 2) (Nat.mod_lt _ (by decide)) hj,
    tile_cols_interleave _ _ _ _ _ n j g (half j) (j.val % 2) (Nat.mod_lt _ (by decide)) hj]
  simp only [addf_apply, subf_apply, band_at y 0 (by decide), band_at y 16 (by decide), band_at y 32 (by decide),
    band_at y 48 (by decide)]
  rcases Nat.mod_two_eq_zero_or_one i.val with hp | hp <;> rcases Nat.mod_two_eq_zero_or_one j.val with hq | hq <;>
    simp only [hp, hq, quad, mix, if_true, if_false, one_ne_zero, ↓reduceIte]

end Cert.Rewavelet.Ker

end
-- ==== Proof.SelTable.lean ====
/-
  The matrix the kernel multiplies by.

  @main writes it from a literal table of 4096 words, row-major. Decided over all 64 × 64 positions: the word at
  row `c`, column `n` is the pattern of 1.0 exactly when `n = 16 (c % 4) + c / 4`, and the zero word otherwise — so
  row `c = 4 g + k` (sub-band `k` of group `g`) has its single 1 in column `16 k + g`.
-/
import proofs.«161214_j24541443129858_2_alg».proof.KernelIdeal
import Idealize.ShloMosaic.Lib.IdealHost
import Idealize.ShloMosaic.PureOps.Ideal.Laws

noncomputable section

namespace Cert.Rewavelet.Sel

open Cert.KernelIdeal Idealize.ShloMosaic

/-- The table's words, position by position. -/
theorem table_words : ∀ (c n : Fin 64), lit0 ⟨c.val * 64 + n.val, by omega⟩
    = if n.val = 16 * (c.val % 4) + c.val / 4 then 0x3F800000#32 else 0x00000000#32 := by
  decide +kernel

/-- The table's values at the ideal instance: a 0/1 matrix. -/
theorem table_value (c n : Fin 64) : Ideal.ofBits .f32 (lit0 ⟨c.val * 64 + n.val, by omega⟩)
    = if n.val = 16 * (c.val % 4) + c.val / 4 then 1 else 0 := by
  rw [table_words]
  by_cases h : n.val = 16 * (c.val % 4) + c.val / 4
  · rw [if_pos h, if_pos h]; exact Ideal.ofBits_one_f32
  · rw [if_neg h, if_neg h]; exact Ideal.ofBits_zero_f32

end Cert.Rewavelet.Sel

end
-- ==== Proof.Blocks.lean ====
/-
  From the kernel's blocks to its whole output array.

  Grid point `t = (b, h)` stages rows `8 h … 8 h + 7` of image `b` (all columns and channels) and the whole 64 × 64
  matrix, and writes back rows `16 h … 16 h + 15` of output image `b`. The stored tile at local row `i` reads the
  staged rows at `i / 2`, and `(16 h + i) / 2 = 8 h + i / 2`, `(16 h + i) % 2 = i % 2`: so what point `t` writes back is
  block `t` of `G` of the argument array. The 8 × 32 output blocks tile the output array, hence the array ends at `G`.
-/
import proofs.«161214_j24541443129858_2_alg».proof.Proof.Gen.KernelIdeal.Value
import proofs.«161214_j24541443129858_2_alg».proof.Proof.Payload
import proofs.«161214_j24541443129858_2_alg».proof.Proof.SelTable
import Idealize.ShloMosaic.Lib.StableHlo.Run

noncomputable section

namespace Cert.Rewavelet.Blocks

open Cert.KernelIdeal Cert.KernelIdeal.Gen Cert.Rewavelet Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl

theorem zero2 : (![0, 0] : Fin 2 → Nat) = fun _ => 0 := funext fun a => by fin_cases a <;> rfl

/-- The printed index maps, decided over the grid: the input window moves with the output window on the batch and
    row-block axes, every other block index is 0, and the output's block indices stay in their ranges. -/
theorem idx_facts : ∀ t : Fin cfg0.N,
    win0_0.index t (0 : Fin 4) = win0_2.index t (0 : Fin 4)
    ∧ win0_0.index t (1 : Fin 4) = win0_2.index t (1 : Fin 4)
    ∧ win0_0.index t (2 : Fin 4) = 0 ∧ win0_0.index t (3 : Fin 4) = 0
    ∧ win0_1.index t (0 : Fin 2) = 0 ∧ win0_1.index t (1 : Fin 2) = 0
    ∧ win0_2.index t (2 : Fin 4) = 0 ∧ win0_2.index t (3 : Fin 4) = 0
    ∧ win0_2.index t (0 : Fin 4) < 8 ∧ win0_2.index t (1 : Fin 4) < 32 :=
  (by decide +kernel : ∀ t : Fin grid0.N, _)

/-- Every output block is some grid point's. -/
theorem idx_onto : ∀ (q0 : Fin 8) (q1 : Fin 32), ∃ t : Fin cfg0.N, win0_2.index t = ![q0.val, q1.val, 0, 0] :=
  (by decide +kernel : ∀ (q0 : Fin 8) (q1 : Fin 32), ∃ t : Fin grid0.N, win0_2.index t = ![q0.val, q1.val, 0, 0])

/-- The matrix as the region finds it: the one host operation before the region writes the literal table. -/
theorem matrix_contents (c : Dev nD) :
    (V m c main_cst : S64x64.Idx → Ideal .f32) = fun i => Ideal.ofBits .f32 (lit0 (S64x64.rowMajor i)) := by
  dsimp only [Gen.V, Gen.hostOps0]
  after_results
  rfl

/-- The staged matrix block is the whole 0/1 matrix. -/
theorem matrix_block (c : Dev nD) (t : Fin cfg0.N) (k n : Fin 64) :
    @Eq (Ideal .f32) (iblk m c 1 t (ix2 k n)) (if n.val = 16 * (k.val % 4) + k.val / 4 then 1 else 0) := by
  obtain ⟨-, -, -, -, e4, e5, -, -, -, -⟩ := idx_facts t
  show (V m c main_cst : S64x64.Idx → Ideal .f32) (((cfg0.win 1).blk t).view.emb (ix2 k n)) = _
  rw [matrix_contents]
  have hrow : S64x64.rowMajor (((cfg0.win 1).blk t).view.emb (ix2 k n)) = (⟨k.val * 64 + n.val, by omega⟩ : Fin 4096) :=
    Fin.ext (by
      rw [Shape.rowMajor_val_two]
      show (win0_1.index t (0 : Fin 2) * 64 + 1 * k.val) * 64 + (win0_1.index t (1 : Fin 2) * 64 + 1 * n.val) = k.val * 64 + n.val
      omega)
  show Ideal.ofBits .f32 (lit0 (S64x64.rowMajor (((cfg0.win 1).blk t).view.emb (ix2 k n)))) = _
  rw [hrow]
  exact Sel.table_value k n

/-- One block: a tile whose rows `r` are rows `8 H + r` of image `B` of `X`, multiplied by the 0/1 matrix, stores at
    local row `i` the entries of `G X` at row `16 H + i` of image `B`. -/
theorem block_value (X : (⟨4, ![8, 256, 256, 64]⟩ : Shape).Idx → EReal)
    (x0 : Vec Ideal S1x8x256x64 .f32) (x1 : Vec Ideal S64x64 .f32)
    (hsel : ∀ c n : Fin 64, x1 (ix2 c n) = if n.val = 16 * (c.val % 4) + c.val / 4 then 1 else 0)
    (B : Fin 8) (H : Fin 32)
    (hx0 : ∀ (r : Fin 8) (w : Fin 256) (k : Fin 64),
      x0 (ix4 (0 : Fin 1) r w k) = X (ix4 B (⟨8 * H.val + r.val, by omega⟩ : Fin 256) w k))
    (o : Fin 1) (i : Fin 16) (j : Fin 512) (g : Fin 16) (I : Fin 512) (hI : I.val = 16 * H.val + i.val) :
    k0_pay1 x0 x1 (ix4 o i j g) = G X (ix4 B I j g) := by
  obtain rfl : o = 0 := Subsingleton.elim _ _
  have hp : I.val % 2 = i.val % 2 := by omega
  have hh : half I = (⟨8 * H.val + (⟨i.val / 2, by omega⟩ : Fin 8).val, by omega⟩ : Fin 256) :=
    Fin.ext (by show I.val / 2 = 8 * H.val + i.val / 2; omega)
  rw [Ker.pay_eq, Ker.tileOf_at _ i j g (⟨i.val / 2, by omega⟩ : Fin 8) rfl, G_ix4]
  unfold Gat
  rw [Ker.gathered_sel x0 x1 hsel _ _ g 0 (by decide) 0 rfl, Ker.gathered_sel x0 x1 hsel _ _ g 1 (by decide) 16 rfl,
    Ker.gathered_sel x0 x1 hsel _ _ g 2 (by decide) 32 rfl, Ker.gathered_sel x0 x1 hsel _ _ g 3 (by decide) 48 rfl,
    hx0, hx0, hx0, hx0, hp, hh]
  rfl

/-- WHAT POINT `t` WRITES BACK is block `t` of `G` of the argument array. -/
theorem flushed_eq (c : Dev nD) (t : Fin cfg0.N) :
    (dats m 0 c).flushed 2 t
      = ((cfg0.win 2).blk t).view.read (Elt Ideal) (G (m ((c : Thread nD τ).loc main_arg0))) := by
  rw [Cert.KernelIdeal.Value.flushed2]
  unfold out0_2
  rw [View.canon_unit_zero zero4]
  simp only [View.ld_unit_zero (S := S1x8x256x64) zero4, View.ld_unit_zero (S := S64x64) zero2]
  obtain ⟨e0, e1, e2, e3, -, -, e6, e7, e8, e9⟩ := idx_facts t
  funext y
  show k0_pay1 (iblk m c 0 t) (iblk m c 1 t) y
    = G (m ((c : Thread nD τ).loc main_arg0)) (((cfg0.win 2).blk t).view.emb y)
  have hy1 : (y 1).val < 16 := (y 1).isLt
  have hx0 : ∀ (r : Fin 8) (w : Fin 256) (k : Fin 64), iblk m c 0 t (ix4 (0 : Fin 1) r w k)
      = m ((c : Thread nD τ).loc main_arg0)
          (ix4 (⟨win0_2.index t (0 : Fin 4), e8⟩ : Fin 8)
            (⟨8 * (⟨win0_2.index t (1 : Fin 4), e9⟩ : Fin 32).val + r.val, by show 8 * win0_2.index t (1 : Fin 4) + r.val < 256; omega⟩ : Fin 256) w k) := by
    intro r w k
    show V m c main_arg0 (((cfg0.win 0).blk t).view.emb (ix4 (0 : Fin 1) r w k)) = _
    rw [V_main_arg0]
    refine congrArg (m ((c : Thread nD τ).loc main_arg0)) (funext fun a => Fin.ext ?_)
    match a with
    | ⟨0, _⟩ => show win0_0.index t (0 : Fin 4) * 1 + 1 * 0 = win0_2.index t (0 : Fin 4); omega
    | ⟨1, _⟩ => show win0_0.index t (1 : Fin 4) * 8 + 1 * r.val = 8 * win0_2.index t (1 : Fin 4) + r.val; omega
    | ⟨2, _⟩ => show win0_0.index t (2 : Fin 4) * 256 + 1 * w.val = w.val; omega
    | ⟨3, _⟩ => show win0_0.index t (3 : Fin 4) * 64 + 1 * k.val = k.val; omega
  refine ((congrArg (k0_pay1 (iblk m c 0 t) (iblk m c 1 t)) (eq_ix4 y)).trans
    (block_value (m ((c : Thread nD τ).loc main_arg0)) (iblk m c 0 t) (iblk m c 1 t) (matrix_block m c t)
      (⟨win0_2.index t (0 : Fin 4), e8⟩ : Fin 8) (⟨win0_2.index t (1 : Fin 4), e9⟩ : Fin 32) hx0 (y 0) (y 1) (y 2) (y 3)
      (⟨16 * win0_2.index t (1 : Fin 4) + (y 1).val, by omega⟩ : Fin 512) rfl)).trans ?_
  refine congrArg (G (m ((c : Thread nD τ).loc main_arg0))) (funext fun a => Fin.ext ?_)
  match a with
  | ⟨0, _⟩ =>
    show win0_2.index t (0 : Fin 4) = win0_2.index t (0 : Fin 4) * 1 + 1 * (y 0).val
    have hy0 : (y 0).val < 1 := (y 0).isLt
    omega
  | ⟨1, _⟩ => show 16 * win0_2.index t (1 : Fin 4) + (y 1).val = win0_2.index t (1 : Fin 4) * 16 + 1 * (y 1).val; omega
  | ⟨2, _⟩ => show (y 2).val = win0_2.index t (2 : Fin 4) * 512 + 1 * (y 2).val; omega
  | ⟨3, _⟩ => show (y 3).val = win0_2.index t (3 : Fin 4) * 16 + 1 * (y 3).val; omega

/-- An index of the output array is in point `t`'s block iff each coordinate is in the block's range on its axis. -/
theorem mem_blk (t : Fin cfg0.N) (i : S8x512x512x16.Idx) :
    i ∈ ((cfg0.win 2).blk t).view.set ↔ ∀ a : Fin 4, win0_2.index t a * S1x16x512x16.size a ≤ (i a).val
      ∧ (i a).val < win0_2.index t a * S1x16x512x16.size a + S1x16x512x16.size a := by
  show i ∈ ((View.whole main_v0).slice (win0_2.rect t)).set ↔ _
  rw [View.set_slice_whole, Rect.mem_set_unit]
  exact Iff.rfl

/-- The output blocks cover the output array: row `i` of image `b` is in the block of point `(b, i / 16)`. -/
theorem covered (i : S8x512x512x16.Idx) :
    ∃ t : Fin cfg0.N, (cfg0.win 2).flush t = true ∧ i ∈ ((cfg0.win 2).blk t).view.set := by
  have h0 : (i 0).val < 8 := (i 0).isLt
  have h1 : (i 1).val < 512 := (i 1).isLt
  have h2 : (i 2).val < 512 := (i 2).isLt
  have h3 : (i 3).val < 16 := (i 3).isLt
  obtain ⟨t, ht⟩ := idx_onto ⟨(i 0).val, h0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 512 ≤ (i 2).val ∧ (i 2).val < win0_2.index t (2 : Fin 4) * 512 + 512; omega
  | ⟨3, _⟩ => show win0_2.index t (3 : Fin 4) * 16 ≤ (i 3).val ∧ (i 3).val < win0_2.index t (3 : Fin 4) * 16 + 16; omega

/-- THE OUTPUT ARRAY after the run is `G` of the argument array. -/
theorem final (c : Dev nD) : (dats m 0 c).arrAt 2 cfg0.N = G (m ((c : Thread nD τ).loc main_arg0)) :=
  (dats m 0 c).arrAt_eq_of_cover 2 (G (m ((c : Thread nD τ).loc main_arg0))) (fun t _ => flushed_eq m c t) covered

/-- The kernel's run: the output array ends at `G` of the argument array, which is unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Rewavelet.Blocks

end
-- ==== Proof.RefValue.lean ====
/-
  The reference computes `G`.

  Read stage by stage at explicit coordinates: the transpose to [B, C, H, W] and the reshape to
  [B, 16, 4, H, W] put channel `4 g + k` at group `g`, sub-band `k`; the four slices are the sub-band planes
  `a, b, c, d`; `a ± b` and `c ± d` are interleaved along the last axis (column `2 n + p` takes the sum at
  `p = 0`, the difference at `p = 1`), the two results are added and subtracted and interleaved along the rows
  in the same way, and the last transpose moves the group axis to the end.
-/
import proofs.«161214_j24541443129858_2_alg».proof.Proof.Gen.ReferenceIdeal.Read
import proofs.«161214_j24541443129858_2_alg».proof.Proof.Mix
import proofs.«161214_j24541443129858_2_alg».proof.Proof.Interleave

noncomputable section

namespace Cert.Rewavelet.Ref

open Cert.ReferenceIdeal Cert.ReferenceIdeal.Gen Cert.ReferenceIdeal.Read Cert.Rewavelet Idealize.ShloMosaic Idealize.ShloMosaic.ValueIdx

/-- The argument array's contents at the ideal values. -/
abbrev Arr : Type := (⟨S8x256x256x64, .f32⟩ : BufTy).Contents (Elt Ideal)

/-- Sub-band plane `k`: the slice at offset `k` of the sub-band axis, with that unit axis dropped, holds at
    `(b, g, i, j)` the input at pixel `(i, j)`, channel `4 g + k`. -/
theorem plane (x : Arr) (k : Nat) (hk : k < 4) (hs : S8x16x4x256x256.Slices ![0, 0, k, 0, 0] S8x16x1x256x256)
    (b : Fin 8) (g : Fin 16) (i j : Fin 256) :
    shapeCast S8x16x256x256 (extractStridedSlice S8x16x1x256x256 ![0, 0, k, 0, 0] (val_main_v1 (F := Ideal) x) hs)
        shapeCasts_S8x16x1x256x256_S8x16x256x256 (ix4 b g i j)
      = x (ix4 b i j (⟨4 * g.val + k, by omega⟩ : Fin 64)) := by
  refine (shapeCast_apply _ _ (ix4 b g i j) (ix5 b g (0 : Fin 1) i j) ?_).trans ?_
  · rw [Shape.rowMajor_val_five, Shape.rowMajor_val_four]
    show (((b.val * 16 + g.val) * 1 + 0) * 256 + i.val) * 256 + j.val = ((b.val * 16 + g.val) * 256 + i.val) * 256 + j.val
    omega
  · refine (extractStridedSlice_apply _ _ hs (ix5 b g (0 : Fin 1) i j) (ix5 b g (⟨k, hk⟩ : Fin 4) i j) ?_).trans ?_
    · intro a
      match a with
      | ⟨0, _⟩ => show b.val = 0 + b.val; omega
      | ⟨1, _⟩ => show g.val = 0 + g.val; omega
      | ⟨2, _⟩ => show k = k + 0; omega
      | ⟨3, _⟩ => show i.val = 0 + i.val; omega
      | ⟨4, _⟩ => show j.val = 0 + j.val; omega
    · unfold val_main_v1
      refine (shapeCast_apply _ _ (ix5 b g (⟨k, hk⟩ : Fin 4) i j) (ix4 b (⟨4 * g.val + k, by omega⟩ : Fin 64) i j) ?_).trans ?_
      · rw [Shape.rowMajor_val_four, Shape.rowMajor_val_five]
        show ((b.val * 64 + (4 * g.val + k)) * 256 + i.val) * 256 + j.val
          = (((b.val * 16 + g.val) * 4 + k) * 256 + i.val) * 256 + j.val
        omega
      · unfold val_main_v0
        exact transpose_apply [0, 3, 1, 2] x _ (ix4 b (⟨4 * g.val + k, by omega⟩ : Fin 64) i j)
          (ix4 b i j (⟨4 * g.val + k, by omega⟩ : Fin 64)) (fun a => match a with
            | ⟨0, _⟩ => rfl
            | ⟨1, _⟩ => rfl
            | ⟨2, _⟩ => rfl
            | ⟨3, _⟩ => rfl)

theorem planeA (x : Arr) (b : Fin 8) (g : Fin 16) (i j : Fin 256) :
    val_main_v3 (F := Ideal) x (ix4 b g i j) = x (ix4 b i j (chan g 0)) := by
  unfold val_main_v3 val_main_v2
  exact plane x 0 (by decide) _ b g i j

theorem planeB (x : Arr) (b : Fin 8) (g : Fin 16) (i j : Fin 256) :
    val_main_v5 (F := Ideal) x (ix4 b g i j) = x (ix4 b i j (chan g 1)) := by
  unfold val_main_v5 val_main_v4
  exact plane x 1 (by decide) _ b g i j

theorem planeC (x : Arr) (b : Fin 8) (g : Fin 16) (i j : Fin 256) :
    val_main_v7 (F := Ideal) x (ix4 b g i j) = x (ix4 b i j (chan g 2)) := by
  unfold val_main_v7 val_main_v6
  exact plane x 2 (by decide) _ b g i j

theorem planeD (x : Arr) (b : Fin 8) (g : Fin 16) (i j : Fin 256) :
    val_main_v9 (F := Ideal) x (ix4 b g i j) = x (ix4 b i j (chan g 3)) := by
  unfold val_main_v9 val_main_v8
  exact plane x 3 (by decide) _ b g i j

/-- `a ± b` interleaved along the columns. -/
theorem low_at (x : Arr) (b : Fin 8) (g : Fin 16) (i : Fin 256) (c : Fin 512) :
    val_main_v15 (F := Ideal) x (ix4 b g i c)
      = mix (c.val % 2) (x (ix4 b i (half c) (chan g 0))) (x (ix4 b i (half c) (chan g 1))) := by
  have e : val_main_v15 (F := Ideal) x (ix4 b g i c)
      = if c.val % 2 = 0 then val_main_v10 (F := Ideal) x (ix4 b g i (half c)) else val_main_v11 (F := Ideal) x (ix4 b g i (half c)) := by
    unfold val_main_v15 val_main_v14 val_main_v12 val_main_v13
    exact planes_cols_interleave (val_main_v10 (F := Ideal) x) (val_main_v11 (F := Ideal) x) _ _ _ b g i c (half c) (c.val % 2)
      (Nat.mod_lt _ (by decide)) (by show c.val = 2 * (c.val / 2) + c.val % 2; omega)
  rw [e, val_main_v10_apply, val_main_v11_apply, planeA, planeB]
  rfl

/-- `c ± d` interleaved along the columns. -/
theorem high_at (x : Arr) (b : Fin 8) (g : Fin 16) (i : Fin 256) (c : Fin 512) :
    val_main_v21 (F := Ideal) x (ix4 b g i c)
      = mix (c.val % 2) (x (ix4 b i (half c) (chan g 2))) (x (ix4 b i (half c) (chan g 3))) := by
  have e : val_main_v21 (F := Ideal) x (ix4 b g i c)
      = if c.val % 2 = 0 then val_main_v16 (F := Ideal) x (ix4 b g i (half c)) else val_main_v17 (F := Ideal) x (ix4 b g i (half c)) := by
    unfold val_main_v21 val_main_v20 val_main_v18 val_main_v19
    exact planes_cols_interleave (val_main_v16 (F := Ideal) x) (val_main_v17 (F := Ideal) x) _ _ _ b g i c (half c) (c.val % 2)
      (Nat.mod_lt _ (by decide)) (by show c.val = 2 * (c.val / 2) + c.val % 2; omega)
  rw [e, val_main_v16_apply, val_main_v17_apply, planeC, planeD]
  rfl

/-- The array before the last transpose: the two column-interleaved arrays added and subtracted, interleaved
    along the rows. -/
theorem rows_at (x : Arr) (b : Fin 8) (g : Fin 16) (i c : Fin 512) :
    val_main_v27 (F := Ideal) x (ix4 b g i c) = Gat x b i c g := by
  have e : val_main_v27 (F := Ideal) x (ix4 b g i c)
      = if i.val % 2 = 0 then val_main_v22 (F := Ideal) x (ix4 b g (half i) c) else val_main_v23 (F := Ideal) x (ix4 b g (half i) c) := by
    unfold val_main_v27 val_main_v26 val_main_v24 val_main_v25
    exact planes_rows_interleave (val_main_v22 (F := Ideal) x) (val_main_v23 (F := Ideal) x) _ _ _ b g i c (half i) (i.val % 2)
      (Nat.mod_lt _ (by decide)) (by show i.val = 2 * (i.val / 2) + i.val % 2; omega)
  rw [e, val_main_v22_apply, val_main_v23_apply, low_at, high_at]
  rfl

/-- The reference's result is `G` of its argument. -/
theorem result_eq (x : Arr) : val_main_v28 (F := Ideal) x = G x := by
  funext j
  obtain ⟨b, i, c, g, rfl⟩ : ∃ (b : Fin 8) (i c : Fin 512) (g : Fin 16), j = ix4 b i c g := ⟨j 0, j 1, j 2, j 3, eq_ix4 j⟩
  rw [G_ix4, ← rows_at]
  unfold val_main_v28
  exact transpose_apply [0, 2, 3, 1] _ _ (ix4 b i c g) (ix4 b g i c) (fun a => match a with
    | ⟨0, _⟩ => rfl
    | ⟨1, _⟩ => rfl
    | ⟨2, _⟩ => rfl
    | ⟨3, _⟩ => rfl)

end Cert.Rewavelet.Ref

end
-- ==== Proof.lean ====
/-
  The kernel and its reference compute one function, `Cert.Rewavelet.G`, of the argument array, with the same tree of
  sums and differences at every output entry; no algebraic law and no finiteness is used.

  The 64 channels of an input pixel are 16 groups of four sub-bands `a, b, c, d`. Each input pixel `(h, w)` of a
  group becomes the 2 × 2 output block `(a ± b) ± (c ± d)` (`Proof/Mix.lean`).

  * The reference transposes the channels to the front, slices the four sub-band planes, and interleaves
    `a + b` with `a - b` (and `c + d` with `c - d`) along the columns, then the sum and the difference of those along
    the rows (`Proof/RefValue.lean`, over the generated read-at-an-index module).
  * The kernel gathers the sub-bands by multiplying each pixel's 64 channels with a 64 × 64 permutation matrix
    (one 1 per row: `Proof/SelTable.lean`), which at the ideal values picks exactly one channel per output column
    (`Proof/Payload.lean`), and interleaves the same sums and differences (`Proof/Interleave.lean`). Its 8 × 32 grid
    of output blocks tiles the output array (`Proof/Blocks.lean`, over the generated blockwise value module).

  The three frames are the generated ones (the reference's is its generated run with the result dropped); the ideal
  pass rewrote nothing, so `preserves` is `True`.
-/
import proofs.«161214_j24541443129858_2_alg».proof.Defs
import proofs.«161214_j24541443129858_2_alg».proof.Proof.Gen.Kernel
import proofs.«161214_j24541443129858_2_alg».proof.Proof.Gen.Kernel.Skeleton
import proofs.«161214_j24541443129858_2_alg».proof.Proof.Gen.Kernel.Launch
import proofs.«161214_j24541443129858_2_alg».proof.Proof.Gen.Kernel.Points
import proofs.«161214_j24541443129858_2_alg».proof.Proof.Gen.Kernel.Frame
import proofs.«161214_j24541443129858_2_alg».proof.Proof.Gen.KernelIdeal
import proofs.«161214_j24541443129858_2_alg».proof.Proof.Gen.KernelIdeal.Skeleton
import proofs.«161214_j24541443129858_2_alg».proof.Proof.Gen.KernelIdeal.Launch
import proofs.«161214_j24541443129858_2_alg».proof.Proof.Gen.KernelIdeal.Points
import proofs.«161214_j24541443129858_2_alg».proof.Proof.Gen.KernelIdeal.Frame
import proofs.«161214_j24541443129858_2_alg».proof.Proof.Gen.ReferenceIdeal
import proofs.«161214_j24541443129858_2_alg».proof.Proof.Gen.Pre_finite_inputs
import proofs.«161214_j24541443129858_2_alg».proof.Proof.Gen.KernelIdeal.Value
import proofs.«161214_j24541443129858_2_alg».proof.Proof.Gen.ReferenceIdeal.Run
import proofs.«161214_j24541443129858_2_alg».proof.Proof.Gen.ReferenceIdeal.Read
import proofs.«161214_j24541443129858_2_alg».proof.Proof.Blocks
import proofs.«161214_j24541443129858_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument array, the kernel's output array ends at `G` of it (the blocks tile the
    array) and the reference's result at `G` of the same array (stage by stage): equal element by element. -/
theorem algebraic : Cert.algebraic_KernelIdeal_ReferenceIdeal := by
  intro m ρ m' ρ' _ hagree
  refine ⟨fun c => Cert.Rewavelet.G (m ((c.tc : Thread Cert.KernelIdeal.nD Cert.KernelIdeal.τ).loc Cert.KernelIdeal.main_arg0)),
    Cert.Rewavelet.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Rewavelet.Ref.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
